-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel

variable [Facts]

def fn {F : FTy → Type} [FloatOps F] (main_arg0 : FVec F S8192x4 .f32) (main_arg1 : FVec F S8192x4 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  main_v8
-- ==== Kernel.lean ====
abbrev S8192x4 : Shape := ⟨2, ![8192, 4]⟩
abbrev S4x8192 : Shape := ⟨2, ![4, 8192]⟩
abbrev S8192x8192 : Shape := ⟨2, ![8192, 8192]⟩
abbrev S1024x4 : Shape := ⟨2, ![1024, 4]⟩
abbrev S4x1024 : Shape := ⟨2, ![4, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S4x8192, .f32⟩
  | .hbm, ⟨3, _⟩ => ⟨S8192x8192, .f32⟩
  | .local _ .vmem, ⟨0, _⟩ => ⟨S1024x4, .f32⟩
  | .local _ .vmem, ⟨1, _⟩ => ⟨S1024x4, .f32⟩
  | .local _ .vmem, ⟨2, _⟩ => ⟨S4x1024, .f32⟩
  | .local _ .vmem, ⟨3, _⟩ => ⟨S4x1024, .f32⟩
  | .local _ .vmem, ⟨4, _⟩ => ⟨S1024x1024, .f32⟩
  | .local _ .vmem, ⟨5, _⟩ => ⟨S1024x1024, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x4_S4x8192_1_0 : S8192x4.Transposes [1, 0] S4x8192
  inb_S1024x4_S1024x4_0_0 : ∀ a, (![0, 0] : Fin 2 → Nat) a + S1024x4.size a ≤ S1024x4.size a
  h_S1024x4 : 0 < S1024x4.numel
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S8192x4.size a
  hwx0_0 : ∀ i : grid0.Coords, EltTy.bits .f32 = 32 ∨ (Rect.block (s := S8192x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x8192.size a
  hwx0_1 : ∀ i : grid0.Coords, EltTy.bits .f32 = 32 ∨ (Rect.block (s := S4x8192) S4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

abbrev win0_0 : Pipeline.Window sig grid0 :=
  Pipeline.Window.ofSpec (Memref.whole main_arg0) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4 : Shape := ⟨2, ![8192, 4]⟩
abbrev S8192x1x4 : Shape := ⟨3, ![8192, 1, 4]⟩
abbrev S1x8192x4 : Shape := ⟨3, ![1, 8192, 4]⟩
abbrev S8192x1x1 : Shape := ⟨3, ![8192, 1, 1]⟩
abbrev S8192x1 : Shape := ⟨2, ![8192, 1]⟩
abbrev S1x8192x1 : Shape := ⟨3, ![1, 8192, 1]⟩
abbrev S1x8192 : Shape := ⟨2, ![1, 8192]⟩
abbrev S8192x8192 : Shape := ⟨2, ![8192, 8192]⟩
abbrev S_ : Shape := ⟨0, ![]⟩
abbrev S8192 : Shape := ⟨1, ![8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192x1x4, .f32⟩
  | .hbm, ⟨3, _⟩ => ⟨S1x8192x4, .f32⟩
  | .hbm, ⟨4, _⟩ => ⟨S8192x1x1, .f32⟩
  | .hbm, ⟨5, _⟩ => ⟨S8192x1, .f32⟩
  | .hbm, ⟨6, _⟩ => ⟨S1x8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x1x1, .f32⟩
  | .hbm, ⟨12, _⟩ => ⟨S8192x1, .f32⟩
  | .hbm, ⟨13, _⟩ => ⟨S1x8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1x1, .f32⟩
  | .hbm, ⟨19, _⟩ => ⟨S8192x1, .f32⟩
  | .hbm, ⟨20, _⟩ => ⟨S1x8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x1x1, .f32⟩
  | .hbm, ⟨26, _⟩ => ⟨S8192x1, .f32⟩
  | .hbm, ⟨27, _⟩ => ⟨S1x8192x1, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x1, .f32⟩
  | .hbm, ⟨42, _⟩ => ⟨S8192, .f32⟩
  | .hbm, ⟨43, _⟩ => ⟨S8192x1, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192, .f32⟩
  | .hbm, ⟨48, _⟩ => ⟨S8192x1, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192x1, .f32⟩
  | .hbm, ⟨53, _⟩ => ⟨S8192, .f32⟩
  | .hbm, ⟨54, _⟩ => ⟨S8192x1, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192, .f32⟩
  | .hbm, ⟨59, _⟩ => ⟨S8192x1, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S1x8192, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_cst : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst_0 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_cst_1 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩

abbrev nD : Nat := 1
abbrev τ : Topo := Topo.v7x

variable {F : FTy → Type} [FloatOps F]

class Facts₀ : Prop where
  bcast_S8192x4_S8192x1x4_0_2 : S8192x4.BroadcastsInDim S8192x1x4 (![0, 2] : Fin 2 → Fin S8192x1x4.rank)
  bcast_S8192x4_S1x8192x4_1_2 : S8192x4.BroadcastsInDim S1x8192x4 (![1, 2] : Fin 2 → Fin S1x8192x4.rank)
  slices_S8192x1x4_S8192x1x1_0_0_0 : S8192x1x4.Slices ![0, 0, 0] S8192x1x1
  shapeCasts_S8192x1x1_S8192x1 : S8192x1x1.ShapeCasts S8192x1
  slices_S1x8192x4_S1x8192x1_0_0_0 : S1x8192x4.Slices ![0, 0, 0] S1x8192x1
  shapeCasts_S1x8192x1_S1x8192 : S1x8192x1.ShapeCasts S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  slices_S8192x1x4_S8192x1x1_0_0_1 : S8192x1x4.Slices ![0, 0, 1] S8192x1x1
  slices_S1x8192x4_S1x8192x1_0_0_1 : S1x8192x4.Slices ![0, 0, 1] S1x8192x1
  slices_S8192x1x4_S8192x1x1_0_0_2 : S8192x1x4.Slices ![0, 0, 2] S8192x1x1
  slices_S1x8192x4_S1x8192x1_0_0_2 : S1x8192x4.Slices ![0, 0, 2] S1x8192x1
  slices_S8192x1x4_S8192x1x1_0_0_3 : S8192x1x4.Slices ![0, 0, 3] S8192x1x1
  slices_S1x8192x4_S1x8192x1_0_0_3 : S1x8192x4.Slices ![0, 0, 3] S1x8192x1
  bcast_S_S8192x8192 : S_.BroadcastsInDim S8192x8192 (![] : Fin 0 → Fin S8192x8192.rank)
  slices_S8192x4_S8192x1_0_2 : S8192x4.Slices ![0, 2] S8192x1
  shapeCasts_S8192x1_S8192 : S8192x1.ShapeCasts S8192
  slices_S8192x4_S8192x1_0_0 : S8192x4.Slices ![0, 0] S8192x1
  slices_S8192x4_S8192x1_0_3 : S8192x4.Slices ![0, 3] S8192x1
  slices_S8192x4_S8192x1_0_1 : S8192x4.Slices ![0, 1] S8192x1
  bcast_S8192_S8192x1_0 : S8192.BroadcastsInDim S8192x1 (![0] : Fin 1 → Fin S8192x1.rank)
  bcast_S8192_S1x8192_1 : S8192.BroadcastsInDim S1x8192 (![1] : Fin 1 → Fin S1x8192.rank)

variable [Facts₀]

class Facts : Prop extends Facts₀ where

variable [Facts]
-- ==== Proof.Spec.lean ====
/-
  Pairwise intersection-over-union of two lists of 8192 axis-aligned boxes, as ONE function of the two coordinate
  tables, index by index, on the extended reals.

  A box is a row (x1, y1, x2, y2). For boxes a and b the overlap rectangle has lower corner
  (max a.x1 b.x1, max a.y1 b.y1) and upper corner (min a.x2 b.x2, min a.y2 b.y2); its area is the product of its width
  and height, each clipped below at zero. The union's area is area a + area b - overlap, and the result is
  overlap / (union + a small positive constant). Entry (r, s) of the result pairs box r of the first table with box s
  of the second.

  Both float constants (zero and the small constant) are kept as the exact values of their binary words: the same words
  occur on both sides of every equation below and are never evaluated.
-/
import Idealize.ShloMosaic.PureOps.Ideal
import Idealize.ShloMosaic.Lib.ValueIdx
import Idealize.ShloMosaic.Lib.Pipeline.Value

noncomputable section

namespace Cert.PairIoU

open Idealize.ShloMosaic Idealize.ShloMosaic.ValueIdx

/-- A table of 8192 boxes, one row of four coordinates each. -/
abbrev Boxes : Shape := ⟨2, ![8192, 4]⟩
/-- The same table with the coordinate axis first. -/
abbrev BoxesT : Shape := ⟨2, ![4, 8192]⟩
/-- The table of all pairs. -/
abbrev Pairs : Shape := ⟨2, ![8192, 8192]⟩

/-- Zero, as the value of the all-zero word. -/
abbrev zeroF : EReal := Ideal.ofBits .f32 0x00000000#32
/-- The small constant added to the union's area, as the value of its word. -/
abbrev tiny : EReal := Ideal.ofBits .f32 0x33D6BF95#32

/-- Area of the overlap of the boxes (a0, a1, a2, a3) and (b0, b1, b2, b3): clipped width times clipped height. -/
def overlap (a0 a1 a2 a3 b0 b1 b2 b3 : EReal) : EReal :=
  max zeroF (min a2 b2 - max a0 b0) * max zeroF (min a3 b3 - max a1 b1)

/-- Area of one box: width times height. -/
def area (a0 a1 a2 a3 : EReal) : EReal := (a2 - a0) * (a3 - a1)

/-- Intersection over union of two boxes: overlap / (area a + area b - overlap + tiny), with the quotient of the
    extended reals that both programs' float division denotes. -/
def iou (a0 a1 a2 a3 b0 b1 b2 b3 : EReal) : EReal :=
  Ideal.div (overlap a0 a1 a2 a3 b0 b1 b2 b3)
    (area a0 a1 a2 a3 + area b0 b1 b2 b3 - overlap a0 a1 a2 a3 b0 b1 b2 b3 + tiny)

/-- Box r of the first table against box s of the second, the second table given coordinate axis first. -/
def iouT (A : Boxes.Idx → EReal) (Bt : BoxesT.Idx → EReal) (r s : Fin 8192) : EReal :=
  iou (A (ix2 r (0 : Fin 4))) (A (ix2 r (1 : Fin 4))) (A (ix2 r (2 : Fin 4))) (A (ix2 r (3 : Fin 4)))
    (Bt (ix2 (0 : Fin 4) s)) (Bt (ix2 (1 : Fin 4) s)) (Bt (ix2 (2 : Fin 4) s)) (Bt (ix2 (3 : Fin 4) s))

/-- Box r of the first table against box s of the second, both tables one box per row. -/
def iouAt (A B : Boxes.Idx → EReal) (r s : Fin 8192) : EReal :=
  iou (A (ix2 r (0 : Fin 4))) (A (ix2 r (1 : Fin 4))) (A (ix2 r (2 : Fin 4))) (A (ix2 r (3 : Fin 4)))
    (B (ix2 s (0 : Fin 4))) (B (ix2 s (1 : Fin 4))) (B (ix2 s (2 : Fin 4))) (B (ix2 s (3 : Fin 4)))

/-- THE RESULT: all pairs, the second table given coordinate axis first. -/
def pairwiseT (A : Boxes.Idx → EReal) (Bt : BoxesT.Idx → EReal) : Pairs.Idx → EReal :=
  fun i => iouT A Bt (i 0) (i 1)

/-- THE RESULT: all pairs, both tables one box per row. -/
def pairwise (A B : Boxes.Idx → EReal) : Pairs.Idx → EReal :=
  fun i => iouAt A B (i 0) (i 1)

/-- One pair, the second table read through its transpose: entry (k, s) of the transpose is entry (s, k). -/
theorem iouT_of_transposed (A B : Boxes.Idx → EReal) (Bt : BoxesT.Idx → EReal)
    (hT : ∀ (k : Fin 4) (s : Fin 8192), Bt (ix2 k s) = B (ix2 s k)) (r s : Fin 8192) : iouT A Bt r s = iouAt A B r s := by
  unfold iouT iouAt
  rw [hT, hT, hT, hT]

/-- Reading the second table through its transpose changes nothing. -/
theorem pairwiseT_of_transposed (A B : Boxes.Idx → EReal) (Bt : BoxesT.Idx → EReal)
    (hT : ∀ (k : Fin 4) (s : Fin 8192), Bt (ix2 k s) = B (ix2 s k)) : pairwiseT A Bt = pairwise A B :=
  funext fun i => iouT_of_transposed A B Bt hT (i 0) (i 1)

end Cert.PairIoU

end
-- ==== Proof.KernelEntry.lean ====
/-
  One entry of one output block of the kernel is the intersection-over-union of one box against one box.

  The kernel's body loads a block of 1024 boxes (rows, four coordinates each) and a block of 1024 boxes given coordinate
  axis first (four rows of 1024), and stores a 1024 x 1024 block. Entry (p, q) of what it stores is built from the four
  coordinates of row p of the first block and the four coordinates of column q of the second: the overlap's clipped
  width and height multiplied, divided by the two areas' sum less the overlap plus the small constant — the same
  operations in the same order as the specification's `iou`, so once each read is written by its coordinates the two
  sides are one term.
-/
import proofs.«172226_j33526514712628_1_alg».proof.Proof.Gen.KernelIdeal.Value
import proofs.«172226_j33526514712628_1_alg».proof.Proof.Spec
import Idealize.ShloMosaic.Lib.ValueIdx

noncomputable section

namespace Cert.PairIoU.Kernel

open Idealize.ShloMosaic Idealize.ShloMosaic.ValueIdx
open Cert.KernelIdeal Cert.KernelIdeal.Gen

/-- Two rank-2 indices with the same two coordinates are equal. -/
local macro "coords" : tactic => `(tactic| (funext a; match a with | ⟨0, _⟩ => rfl | ⟨1, _⟩ => rfl))

/-- ENTRY (p, q) OF THE STORED BLOCK, from the loaded blocks `P0` (boxes by rows) and `P1` (boxes by columns): the
    intersection-over-union of row p of `P0` and column q of `P1`. Each of the body's twenty-four reads is the read of
    one coordinate of one of the two boxes. -/
theorem block_entry (P0 : Vec Ideal S1024x4 .f32) (P1 : Vec Ideal S4x1024 .f32) (p q : Fin 1024) :
    Cert.KernelIdeal.Value.E2 (F := Ideal) P0 P1 (ix2 p q)
      = iou (P0 (ix2 p (0 : Fin 4))) (P0 (ix2 p (1 : Fin 4))) (P0 (ix2 p (2 : Fin 4))) (P0 (ix2 p (3 : Fin 4)))
          (P1 (ix2 (0 : Fin 4) q)) (P1 (ix2 (1 : Fin 4) q)) (P1 (ix2 (2 : Fin 4) q)) (P1 (ix2 (3 : Fin 4) q)) := by
  have e0 : Value.ix2_0 (ix2 p q) = ix2 p (2 : Fin 4) := by coords
  have e1 : Value.ix2_1 (ix2 p q) = ix2 (2 : Fin 4) q := by coords
  have e2 : Value.ix2_2 (ix2 p q) = ix2 p (0 : Fin 4) := by coords
  have e3 : Value.ix2_3 (ix2 p q) = ix2 (0 : Fin 4) q := by coords
  have e4 : Value.ix2_4 (ix2 p q) = ix2 p (3 : Fin 4) := by coords
  have e5 : Value.ix2_5 (ix2 p q) = ix2 (3 : Fin 4) q := by coords
  have e6 : Value.ix2_6 (ix2 p q) = ix2 p (1 : Fin 4) := by coords
  have e7 : Value.ix2_7 (ix2 p q) = ix2 (1 : Fin 4) q := by coords
  have e8 : Value.ix2_8 (ix2 p q) = ix2 p (2 : Fin 4) := by coords
  have e9 : Value.ix2_9 (ix2 p q) = ix2 p (0 : Fin 4) := by coords
  have e10 : Value.ix2_10 (ix2 p q) = ix2 p (3 : Fin 4) := by coords
  have e11 : Value.ix2_11 (ix2 p q) = ix2 p (1 : Fin 4) := by coords
  have e12 : Value.ix2_12 (ix2 p q) = ix2 (2 : Fin 4) q := by coords
  have e13 : Value.ix2_13 (ix2 p q) = ix2 (0 : Fin 4) q := by coords
  have e14 : Value.ix2_14 (ix2 p q) = ix2 (3 : Fin 4) q := by coords
  have e15 : Value.ix2_15 (ix2 p q) = ix2 (1 : Fin 4) q := by coords
  have e16 : Value.ix2_16 (ix2 p q) = ix2 p (2 : Fin 4) := by coords
  have e17 : Value.ix2_17 (ix2 p q) = ix2 (2 : Fin 4) q := by coords
  have e18 : Value.ix2_18 (ix2 p q) = ix2 p (0 : Fin 4) := by coords
  have e19 : Value.ix2_19 (ix2 p q) = ix2 (0 : Fin 4) q := by coords
  have e20 : Value.ix2_20 (ix2 p q) = ix2 p (3 : Fin 4) := by coords
  have e21 : Value.ix2_21 (ix2 p q) = ix2 (3 : Fin 4) q := by coords
  have e22 : Value.ix2_22 (ix2 p q) = ix2 p (1 : Fin 4) := by coords
  have e23 : Value.ix2_23 (ix2 p q) = ix2 (1 : Fin 4) q := by coords
  simp only [Cert.KernelIdeal.Value.E2, e0, e1, e2, e3, e4, e5, e6, e7, e8, e9, e10, e11, e12, e13, e14, e15, e16, e17, e18, e19,
    e20, e21, e22, e23]
  rfl

/-- The same entry when the two loaded blocks are pieces of two whole tables `A` (boxes by rows) and `Bt` (boxes by
    columns): if row p of the first block is row r of `A` and column q of the second block is column s of `Bt`, the
    entry is box r of `A` against box s of `Bt`. -/
theorem block_entry_of_tables (P0 : Vec Ideal S1024x4 .f32) (P1 : Vec Ideal S4x1024 .f32)
    (A : Boxes.Idx → EReal) (Bt : BoxesT.Idx → EReal) (p q : Fin 1024) (r s : Fin 8192)
    (h0 : ∀ k : Fin 4, P0 (ix2 p k) = A (ix2 r k)) (h1 : ∀ k : Fin 4, P1 (ix2 k q) = Bt (ix2 k s)) :
    Cert.KernelIdeal.Value.E2 (F := Ideal) P0 P1 (ix2 p q) = iouT A Bt r s := by
  rw [block_entry]
  unfold iouT
  rw [h0, h0, h0, h0, h1, h1, h1, h1]

end Cert.PairIoU.Kernel

end
-- ==== Proof.KernelArray.lean ====
/-
  The kernel's result array is the table of all pairs.

  The grid has 8 x 8 points; point (i, j) loads rows 1024 i ... 1024 i + 1023 of the first table, columns
  1024 j ... 1024 j + 1023 of the second table's transpose (which the program forms before the kernel is launched), and
  writes block (i, j) of the result. So what a point writes back is its block of the all-pairs table, the 64 blocks
  tile the 8192 x 8192 result, and the array after the run is the all-pairs table of the two argument tables.
-/
import proofs.«172226_j33526514712628_1_alg».proof.Proof.Gen.KernelIdeal.Value
import proofs.«172226_j33526514712628_1_alg».proof.Proof.Spec
import proofs.«172226_j33526514712628_1_alg».proof.Proof.KernelEntry
import Idealize.ShloMosaic.Lib.ValueIdx
import Idealize.ShloMosaic.Lib.Pipeline.Value
import Idealize.ShloMosaic.Lib.StableHlo.Run
import Idealize.ShloMosaic.Lib.Tactic

noncomputable section

namespace Cert.PairIoU.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-! ## The block a point stores -/

/-- What the body leaves in the output's buffer, entry by entry: the loads are of the whole input buffers, and the one
    store covers the whole output buffer. -/
theorem stored_block (x0 : Vec Ideal S1024x4 .f32) (x1 : Vec Ideal S4x1024 .f32) (y : S1024x1024.Idx) :
    out0_2 (F := Ideal) x0 x1 y = Cert.KernelIdeal.Value.E2 (F := Ideal) x0 x1 y := by
  unfold out0_2
  rw [View.ld_unit_zero (S := S1024x4) zero_offsets, View.ld_unit_zero (S := S4x1024) zero_offsets]
  exact Cert.KernelIdeal.Value.canon2_eq x0 x1 y

/-! ## Where the blocks lie -/

/-- The three index maps over the 64 grid points: the first table's block moves with the result's block row, the
    transposed second table's block with the result's block column, and both block coordinates stay below 8. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every one of the 8 x 8 result blocks is some point's. -/
theorem block_of_every_position : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Row p of the first table's block at point t is row (block row * 1024 + p) of the table as the region finds it. -/
theorem boxes_block (c : Dev nD) (t : Fin cfg0.N) (p : Fin 1024) (k : Fin 4) (r : Fin 8192)
    (hr : r.val = win0_2.index t (0 : Fin 2) * 1024 + p.val) :
    (iblk m c 0 t : Vec Ideal S1024x4 .f32) (ix2 p k) = (V m c main_arg0 : S8192x4.Idx → EReal) (ix2 r k) := by
  obtain ⟨e0, e1, -⟩ := block_positions t
  show ((cfg0.win 0).blk t).view.read (Elt Ideal) (V m c main_arg0) (ix2 p k) = V m c main_arg0 (ix2 r k)
  generalize V m c main_arg0 = X
  rw [View.read_apply]
  show X _ = X _
  refine congrArg X (funext fun a => Fin.ext ?_)
  match a with
  | ⟨0, _⟩ => show win0_0.index t (0 : Fin 2) * 1024 + 1 * p.val = r.val; omega
  | ⟨1, _⟩ => show win0_0.index t (1 : Fin 2) * 4 + 1 * k.val = k.val; omega

/-- Column q of the transposed second table's block at point t is column (block column * 1024 + q) of the transposed
    table as the region finds it. -/
theorem boxesT_block (c : Dev nD) (t : Fin cfg0.N) (q : Fin 1024) (k : Fin 4) (s : Fin 8192)
    (hs : s.val = win0_2.index t (1 : Fin 2) * 1024 + q.val) :
    (iblk m c 1 t : Vec Ideal S4x1024 .f32) (ix2 k q) = (V m c main_v0 : S4x8192.Idx → EReal) (ix2 k s) := by
  obtain ⟨-, -, e2, e3, -⟩ := block_positions t
  show ((cfg0.win 1).blk t).view.read (Elt Ideal) (V m c main_v0) (ix2 k q) = V m c main_v0 (ix2 k s)
  generalize V m c main_v0 = X
  rw [View.read_apply]
  show X _ = X _
  refine congrArg X (funext fun a => Fin.ext ?_)
  match a with
  | ⟨0, _⟩ => show win0_1.index t (0 : Fin 2) * 4 + 1 * k.val = k.val; omega
  | ⟨1, _⟩ => show win0_1.index t (1 : Fin 2) * 1024 + 1 * q.val = s.val; omega

/-! ## What a point writes back -/

/-- WHAT POINT t WRITES BACK is block t of the all-pairs table of the first table and the transposed second table, as
    the region finds them. -/
theorem flushed_eq (c : Dev nD) (t : Fin cfg0.N) :
    (dats m 0 c).flushed 2 t
      = ((cfg0.win 2).blk t).view.read (Elt Ideal) (pairwiseT (V m c main_arg0) (V m c main_v0)) := by
  rw [Cert.KernelIdeal.Value.flushed2]
  obtain ⟨-, -, -, -, b0, b1⟩ := block_positions t
  funext j
  obtain ⟨p, q, rfl⟩ : ∃ (p q : Fin 1024), j = ix2 p q := ⟨j 0, j 1, eq_ix2 j⟩
  have hp : p.val < 1024 := p.isLt
  have hq : q.val < 1024 := q.isLt
  show out0_2 (iblk m c 0 t) (iblk m c 1 t) (ix2 p q)
    = iouT (V m c main_arg0) (V m c main_v0)
        ⟨win0_2.index t (0 : Fin 2) * 1024 + 1 * p.val, by omega⟩ ⟨win0_2.index t (1 : Fin 2) * 1024 + 1 * q.val, by omega⟩
  rw [stored_block]
  exact block_entry_of_tables (iblk m c 0 t) (iblk m c 1 t) (V m c main_arg0) (V m c main_v0) p q _ _
    (fun k => boxes_block m c t p k _ (by show _ * 1024 + 1 * p.val = _; omega))
    (fun k => boxesT_block m c t q k _ (by show _ * 1024 + 1 * q.val = _; omega))

/-! ## The blocks tile the result -/

/-- An index of the result is in point t's block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Entry (r, s) of the result lies in the block at block position (r / 1024, s / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_of_every_position ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-! ## The array after the run -/

/-- The one host operation before the launch writes the second table's transpose. -/
theorem transposed_table (c : Dev nD) :
    (V m c main_v0 : S4x8192.Idx → EReal)
      = transpose S4x8192 [1, 0] (m ((c : Thread nD τ).loc main_arg1)) transposes_S8192x4_S4x8192_1_0 := by
  dsimp only [Gen.V, Gen.hostOps0]
  after_results

/-- Entry (k, s) of the transposed table is entry (s, k) of the second argument. -/
theorem transposed_entry (c : Dev nD) (k : Fin 4) (s : Fin 8192) :
    (V m c main_v0 : S4x8192.Idx → EReal) (ix2 k s) = (m ((c : Thread nD τ).loc main_arg1) : S8192x4.Idx → EReal) (ix2 s k) := by
  rw [transposed_table]
  refine transpose_apply _ _ _ (ix2 k s) (ix2 s k) fun b => ?_
  match b with
  | ⟨0, _⟩ => rfl
  | ⟨1, _⟩ => rfl

/-- THE RESULT ARRAY after the run is the all-pairs table of the two arguments. -/
theorem final (c : Dev nD) :
    (dats m 0 c).arrAt 2 cfg0.N
      = pairwise (m ((c : Thread nD τ).loc main_arg0)) (m ((c : Thread nD τ).loc main_arg1)) := by
  rw [(dats m 0 c).arrAt_eq_of_cover 2 (pairwiseT (V m c main_arg0) (V m c main_v0)) (fun t _ => flushed_eq m c t) covered,
    V_main_arg0 m c]
  exact pairwiseT_of_transposed _ _ _ (transposed_entry m c)

/-- The kernel's run, read: the result array at the all-pairs table of the arguments, the arguments unchanged. -/
theorem run : θ_run defs (onTc (τ := τ) (main (F := Ideal))) ⟨m, fun _ => 0, ρ⟩ fun r => ∀ c : Dev nD,
      r.2.mem ((c : Thread nD τ).loc main_v1)
        = pairwise (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.PairIoU.Kernel

end
-- ==== Proof.RefTable.lean ====
/-
  The reference's result is the table of all pairs.

  The reference spreads the two tables over a common 8192 x 8192 index set (a slice of one coordinate column, reshapes
  that only drop or add axes of extent one, a broadcast along the other axis), takes the pointwise maxima, minima,
  differences and products, and divides. Read at entry (r, s), every one of its reads is one coordinate of box r of the
  first table or of box s of the second, and the operations between them are the specification's `iou`, in the same
  order.
-/
import proofs.«172226_j33526514712628_1_alg».proof.Proof.Gen.ReferenceIdeal.Read
import proofs.«172226_j33526514712628_1_alg».proof.Proof.Spec
import Idealize.ShloMosaic.Lib.ValueIdx

noncomputable section

namespace Cert.PairIoU.Reference

open Idealize.ShloMosaic Idealize.ShloMosaic.ValueIdx
open Cert.ReferenceIdeal Cert.ReferenceIdeal.Read

/-- Two rank-2 indices are equal when their coordinates are equal as numbers; the reshapes' row-major arithmetic on
    axes of extent one (`(r * 1 + 0) / 1 = r`) is linear arithmetic. -/
local macro "coords" : tactic =>
  `(tactic| (funext a; apply Fin.ext; match a with
    | ⟨0, _⟩ => first | rfl | (dsimp only [ix2]; first | rfl | omega)
    | ⟨1, _⟩ => first | rfl | (dsimp only [ix2]; first | rfl | omega)))

/-- ENTRY (r, s) OF THE REFERENCE'S RESULT is box r of the first argument against box s of the second. -/
theorem reference_entry (x0 x1 : Vec Ideal S8192x4 .f32) (r s : Fin 8192) :
    val_main_v67 (F := Ideal) x0 x1 (ix2 r s) = iouAt x0 x1 r s := by
  have hr : r.val < 8192 := r.isLt
  have hs : s.val < 8192 := s.isLt
  -- the corners' coordinates: a column of a table, sliced, its unit axes dropped, spread along the other axis
  have a0 : idx_main_v0 (idx_main_v2 (idx_main_v3 (idx_main_v6 (ix2 r s)))) = ix2 r (0 : Fin 4) := by coords
  have a1 : idx_main_v0 (idx_main_v9 (idx_main_v10 (idx_main_v13 (ix2 r s)))) = ix2 r (1 : Fin 4) := by coords
  have a2 : idx_main_v0 (idx_main_v16 (idx_main_v17 (idx_main_v20 (ix2 r s)))) = ix2 r (2 : Fin 4) := by coords
  have a3 : idx_main_v0 (idx_main_v23 (idx_main_v24 (idx_main_v27 (ix2 r s)))) = ix2 r (3 : Fin 4) := by coords
  have b0 : idx_main_v1 (idx_main_v4 (idx_main_v5 (idx_main_v7 (ix2 r s)))) = ix2 s (0 : Fin 4) := by coords
  have b1 : idx_main_v1 (idx_main_v11 (idx_main_v12 (idx_main_v14 (ix2 r s)))) = ix2 s (1 : Fin 4) := by coords
  have b2 : idx_main_v1 (idx_main_v18 (idx_main_v19 (idx_main_v21 (ix2 r s)))) = ix2 s (2 : Fin 4) := by coords
  have b3 : idx_main_v1 (idx_main_v25 (idx_main_v26 (idx_main_v28 (ix2 r s)))) = ix2 s (3 : Fin 4) := by coords
  -- the areas' coordinates: a column of a table as a vector, the product spread over rows or over columns
  have c2 : idx_main_v37 (idx_main_v38 (idx_main_v59 (idx_main_v61 (ix2 r s)))) = ix2 r (2 : Fin 4) := by coords
  have c0 : idx_main_v39 (idx_main_v40 (idx_main_v59 (idx_main_v61 (ix2 r s)))) = ix2 r (0 : Fin 4) := by coords
  have c3 : idx_main_v42 (idx_main_v43 (idx_main_v59 (idx_main_v61 (ix2 r s)))) = ix2 r (3 : Fin 4) := by coords
  have c1 : idx_main_v44 (idx_main_v45 (idx_main_v59 (idx_main_v61 (ix2 r s)))) = ix2 r (1 : Fin 4) := by coords
  have d2 : idx_main_v48 (idx_main_v49 (idx_main_v60 (idx_main_v62 (ix2 r s)))) = ix2 s (2 : Fin 4) := by coords
  have d0 : idx_main_v50 (idx_main_v51 (idx_main_v60 (idx_main_v62 (ix2 r s)))) = ix2 s (0 : Fin 4) := by coords
  have d3 : idx_main_v53 (idx_main_v54 (idx_main_v60 (idx_main_v62 (ix2 r s)))) = ix2 s (3 : Fin 4) := by coords
  have d1 : idx_main_v55 (idx_main_v56 (idx_main_v60 (idx_main_v62 (ix2 r s)))) = ix2 s (1 : Fin 4) := by coords
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_cst_apply, val_main_cst_0_apply, val_main_cst_1_apply]
  simp only [a0, a1, a2, a3, b0, b1, b2, b3, c0, c1, c2, c3, d0, d1, d2, d3]
  rfl

/-- THE REFERENCE'S RESULT is the all-pairs table of its two arguments. -/
theorem reference_table (x0 x1 : Vec Ideal S8192x4 .f32) :
    val_main_v67 (F := Ideal) x0 x1 = pairwise x0 x1 := by
  funext i
  obtain ⟨r, s, rfl⟩ : ∃ (r s : Fin 8192), i = ix2 r s := ⟨i 0, i 1, eq_ix2 i⟩
  exact reference_entry x0 x1 r s

end Cert.PairIoU.Reference

end
-- ==== Proof.lean ====
/-
  Pairwise intersection-over-union of two tables of 8192 boxes: a tiled kernel against the plain array program.

  THE MATHEMATICS. For boxes a = (a0, a1, a2, a3) and b = (b0, b1, b2, b3), lower corner first, the overlap is
  max 0 (min a2 b2 - max a0 b0) * max 0 (min a3 b3 - max a1 b1), the union is area a + area b - overlap, and the result is
  overlap / (union + a small constant); entry (r, s) of the 8192 x 8192 result pairs box r of the first table with box s of
  the second (Proof/Spec.lean: `pairwise`).

  The kernel transposes the second table, then runs an 8 x 8 grid: point (i, j) reads 1024 rows of the first table and
  1024 columns of the transposed second one and writes block (i, j) of the result. Entry (p, q) of that block is the
  intersection-over-union of row p of the one block and column q of the other (Proof/KernelEntry.lean), the blocks read
  are the rows and columns that block (i, j) of the result pairs, the 64 blocks tile the result, and reading the
  transpose at (k, s) is reading the second table at (s, k): the result array ends at `pairwise` of the two arguments
  (Proof/KernelArray.lean).

  The reference spreads single coordinate columns of both tables over the whole 8192 x 8192 index set and combines them
  pointwise; entry (r, s) of its result reads the coordinates of box r and box s and applies the same operations in the
  same order (Proof/RefTable.lean). Both programs perform the SAME arithmetic on the SAME eight numbers at every entry — the
  difference is only in how the tables are cut and laid out —, so the two results agree on all extended reals, and no
  finiteness of the inputs is used. The kernel's float division and the host's are one function on the extended reals.

  The three frame claims are the generated frame certificates (the reference's from its generated run), and the
  idealization rewrote nothing, so that claim is `True`.
-/
import proofs.«172226_j33526514712628_1_alg».proof.Defs
import proofs.«172226_j33526514712628_1_alg».proof.Proof.Gen.Kernel
import proofs.«172226_j33526514712628_1_alg».proof.Proof.Gen.Kernel.Skeleton
import proofs.«172226_j33526514712628_1_alg».proof.Proof.Gen.Kernel.Launch
import proofs.«172226_j33526514712628_1_alg».proof.Proof.Gen.Kernel.Points
import proofs.«172226_j33526514712628_1_alg».proof.Proof.Gen.Kernel.Frame
import proofs.«172226_j33526514712628_1_alg».proof.Proof.Gen.KernelIdeal
import proofs.«172226_j33526514712628_1_alg».proof.Proof.Gen.KernelIdeal.Skeleton
import proofs.«172226_j33526514712628_1_alg».proof.Proof.Gen.KernelIdeal.Launch
import proofs.«172226_j33526514712628_1_alg».proof.Proof.Gen.KernelIdeal.Points
import proofs.«172226_j33526514712628_1_alg».proof.Proof.Gen.KernelIdeal.Frame
import proofs.«172226_j33526514712628_1_alg».proof.Proof.Gen.ReferenceIdeal
import proofs.«172226_j33526514712628_1_alg».proof.Proof.Gen.Pre_finite_inputs
import proofs.«172226_j33526514712628_1_alg».proof.Proof.Gen.KernelIdeal.Value
import proofs.«172226_j33526514712628_1_alg».proof.Proof.Gen.ReferenceIdeal.Run
import proofs.«172226_j33526514712628_1_alg».proof.Proof.Gen.ReferenceIdeal.Read
import proofs.«172226_j33526514712628_1_alg».proof.Proof.Spec
import proofs.«172226_j33526514712628_1_alg».proof.Proof.KernelArray
import proofs.«172226_j33526514712628_1_alg».proof.Proof.RefTable
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two tables, both programs end with the all-pairs table of those tables. -/
theorem algebraic : Cert.algebraic_KernelIdeal_ReferenceIdeal := by
  intro m ρ m' ρ' _ hagree
  refine ⟨_, Cert.PairIoU.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.PairIoU.Reference.reference_table, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
